-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x512 : Shape := ⟨2, ![16384, 512]⟩
abbrev S256x512 : Shape := ⟨2, ![256, 512]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S16384x16384 .f32) (main_arg1 : FVec F S16384x512 .f32) (main_arg2 : FVec F S256x512 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S16384x16384 : Shape := ⟨2, ![16384, 16384]⟩
abbrev S16384x512 : Shape := ⟨2, ![16384, 512]⟩
abbrev S256x512 : Shape := ⟨2, ![256, 512]⟩
abbrev S512x256 : Shape := ⟨2, ![512, 256]⟩
abbrev S16384x256 : Shape := ⟨2, ![16384, 256]⟩
abbrev S1024x2048 : Shape := ⟨2, ![1024, 2048]⟩
abbrev S1024x512 : Shape := ⟨2, ![1024, 512]⟩
abbrev S1024x256 : Shape := ⟨2, ![1024, 256]⟩
abbrev S1024x1 : Shape := ⟨2, ![1024, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S256x512, .f32⟩
  | .hbm, ⟨3, _⟩ => ⟨S512x256, .f32⟩
  | .hbm, ⟨4, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S512x256, .f32⟩
  | .local _ .vmem, ⟨5, _⟩ => ⟨S1024x256, .f32⟩
  | .local _ .vmem, ⟨6, _⟩ => ⟨S1024x256, .f32⟩
  | .local _ .vmem, ⟨7, _⟩ => ⟨S1024x1, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S256x512_S512x256_1_0 : S256x512.Transposes [1, 0] S512x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  broadcasts_S1024x1_S1024x512 : S1024x1.Broadcasts S1024x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x512 : Shape := ⟨2, ![16384, 512]⟩
abbrev S256x512 : Shape := ⟨2, ![256, 512]⟩
abbrev S_ : Shape := ⟨0, ![]⟩
abbrev S16384 : Shape := ⟨1, ![16384]⟩
abbrev S16384x1 : Shape := ⟨2, ![16384, 1]⟩
abbrev S512x256 : Shape := ⟨2, ![512, 256]⟩
abbrev S16384x256 : Shape := ⟨2, ![16384, 256]⟩

abbrev nBuf : Space → Nat
  | .hbm => 22
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S256x512, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x512, .f32⟩
  | .hbm, ⟨16, _⟩ => ⟨S16384x512, .f32⟩
  | .hbm, ⟨17, _⟩ => ⟨S512x256, .f32⟩
  | .hbm, ⟨18, _⟩ => ⟨S16384x256, .f32⟩
  | .hbm, ⟨19, _⟩ => ⟨S_, .f32⟩
  | .hbm, ⟨20, _⟩ => ⟨S16384x256, .f32⟩
  | .hbm, ⟨21, _⟩ => ⟨S16384x256, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  transposes_S256x512_S512x256_1_0 : S256x512.Transposes [1, 0] S512x256
  bcast_S_S16384x256 : S_.BroadcastsInDim S16384x256 (![] : Fin 0 → Fin S16384x256.rank)
  dot_S16384x512_S512x256_S16384x256_1_0_0_1_n_n_wf : DotDims.WF S16384x512 S512x256 S16384x256 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.Pieces.lean ====
/-
  What one run of the body leaves, read back as values.

  The body has three control cases along the column-block axis `k` of the grid: the first block (`k = 0`)
  stores zeros into the accumulator and then adds the block's row sums; a middle block adds the block's row sums to
  what the accumulator held; the last block (`k = 7`) does the same and then, from the accumulator it has just
  stored, computes the output block. Each store covers its whole buffer, so what a buffer holds afterwards is the
  last store's value, and a load of a buffer stored earlier in the same run reads that store's value. With
  `rs a x` for "`a` plus the row sums of `x`" and `out a x w` for the output computed from accumulator `a`:
  first block leaves `rs 0 x`; a middle block `rs acc x`; the last block leaves `rs acc x` in the accumulator
  and `out (rs acc x) x₁ w` in the output block.
-/
import proofs.«156429_j16690242913101_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A MIDDLE block: the accumulator, holding `acc`, ends at `acc` plus the row sums of the block `x0`. -/
theorem acc_mid (c : Dev nD) (i : grid0.Coords) (a2 : Memref sig .tc .vmem S1024x2048 .f32) (h2 : a2.IsWhole)
    (a3 : Memref sig .tc .vmem S1024x512 .f32) (h3 : a3.IsWhole) (a4 : Memref sig .tc .vmem S512x256 .f32) (h4 : a4.IsWhole)
    (a5 : Memref sig .tc .vmem S1024x256 .f32) (h5 : a5.IsWhole) (a6 : Memref sig .tc .vmem S1024x1 .f32) (h6 : a6.IsWhole)
    (hc0 : ¬cond0_0 i) (hc1 : ¬cond0_1 i)
    (x0 : Vec F S1024x2048 .f32) (x1 : Vec F S1024x512 .f32) (x2 : Vec F S512x256 .f32) (acc : Vec F S1024x1 .f32) :
    sout0_B_0 c i a2 h2 a3 h3 a4 h4 a5 h5 a6 h6 hc0 hc1 x0 x1 x2 acc = k0_pay2 acc x0 := by
  unfold sout0_B_0
  rw [View.read_writes_eq_canon _ _ _ (scover0_B_0 c i a2 h2 a3 h3 a4 h4 a5 h5 a6 h6 hc0 hc1 x0 x1 x2 acc)]
  unfold kernelRun0_B
  dsimp only
  rw [View.canon_unit_zero hz]
  simp only [View.readAt_eq_ld, h6.read_unread, h2.read_unread, View.ld_unit_zero (S := S1024x1) hz,
    View.ld_unit_zero (S := S1024x2048) hz]

/-- The LAST block: the accumulator ends the same way, `acc` plus the row sums of the block `x0`. -/
theorem acc_last (c : Dev nD) (i : grid0.Coords) (a2 : Memref sig .tc .vmem S1024x2048 .f32) (h2 : a2.IsWhole)
    (a3 : Memref sig .tc .vmem S1024x512 .f32) (h3 : a3.IsWhole) (a4 : Memref sig .tc .vmem S512x256 .f32) (h4 : a4.IsWhole)
    (a5 : Memref sig .tc .vmem S1024x256 .f32) (h5 : a5.IsWhole) (a6 : Memref sig .tc .vmem S1024x1 .f32) (h6 : a6.IsWhole)
    (hc0 : ¬cond0_0 i) (hc1 : cond0_1 i)
    (x0 : Vec F S1024x2048 .f32) (x1 : Vec F S1024x512 .f32) (x2 : Vec F S512x256 .f32) (acc : Vec F S1024x1 .f32) :
    sout0_C_0 c i a2 h2 a3 h3 a4 h4 a5 h5 a6 h6 hc0 hc1 x0 x1 x2 acc = k0_pay2 acc x0 := by
  unfold sout0_C_0
  rw [View.read_writes_eq_canon _ _ _ (scover0_C_0 c i a2 h2 a3 h3 a4 h4 a5 h5 a6 h6 hc0 hc1 x0 x1 x2 acc)]
  unfold kernelRun0_C
  dsimp only
  sl_unfold_words
  rw [View.canon_unit_zero hz]
  simp only [View.readAt_eq_ld, h6.read_unread, h2.read_unread, View.ld_unit_zero (S := S1024x1) hz,
    View.ld_unit_zero (S := S1024x2048) hz]

/-- The LAST block's output: computed from the accumulator the same run has just stored, the feature block `x1`
    and the weights `x2`. -/
theorem out_last (c : Dev nD) (i : grid0.Coords) (a2 : Memref sig .tc .vmem S1024x2048 .f32) (h2 : a2.IsWhole)
    (a3 : Memref sig .tc .vmem S1024x512 .f32) (h3 : a3.IsWhole) (a4 : Memref sig .tc .vmem S512x256 .f32) (h4 : a4.IsWhole)
    (a5 : Memref sig .tc .vmem S1024x256 .f32) (h5 : a5.IsWhole) (a6 : Memref sig .tc .vmem S1024x1 .f32) (h6 : a6.IsWhole)
    (hc0 : ¬cond0_0 i) (hc1 : cond0_1 i)
    (x0 : Vec F S1024x2048 .f32) (x1 : Vec F S1024x512 .f32) (x2 : Vec F S512x256 .f32) (acc : Vec F S1024x1 .f32) :
    out0_C_3 c i a2 h2 a3 h3 a4 h4 a5 h5 a6 h6 hc0 hc1 x0 x1 x2 acc = k0_pay3 (k0_pay2 acc x0) x1 x2 := by
  unfold out0_C_3
  rw [View.read_writes_eq_canon _ _ _ (cover0_C_3 c i a2 h2 a3 h3 a4 h4 a5 h5 a6 h6 hc0 hc1 x0 x1 x2 acc)]
  unfold kernelRun0_C
  dsimp only
  sl_unfold_words
  rw [View.canon_unit_zero hz, View.readCov_unit_zero (S := S1024x1) _ hz]
  simp only [View.readAt_eq_ld, h6.read_unread, h2.read_unread, h3.read_unread, h4.read_unread,
    View.ld_unit_zero (S := S1024x1) hz, View.ld_unit_zero (S := S1024x2048) hz, View.ld_unit_zero (S := S1024x512) hz,
    View.ld_unit_zero (S := S512x256) hz]

/-- The FIRST block: the accumulator is zeroed, read back, and ends at zero plus the row sums of the block `x0`. -/
theorem acc_first (c : Dev nD) (i : grid0.Coords) (a2 : Memref sig .tc .vmem S1024x2048 .f32) (h2 : a2.IsWhole)
    (a3 : Memref sig .tc .vmem S1024x512 .f32) (h3 : a3.IsWhole) (a4 : Memref sig .tc .vmem S512x256 .f32) (h4 : a4.IsWhole)
    (a5 : Memref sig .tc .vmem S1024x256 .f32) (h5 : a5.IsWhole) (a6 : Memref sig .tc .vmem S1024x1 .f32) (h6 : a6.IsWhole)
    (hc0 : cond0_0 i) (hc1 : ¬cond0_1 i)
    (x0 : Vec F S1024x2048 .f32) (x1 : Vec F S1024x512 .f32) (x2 : Vec F S512x256 .f32) :
    sout0_A_0 c i a2 h2 a3 h3 a4 h4 a5 h5 a6 h6 hc0 hc1 x0 x1 x2 = k0_pay2 (k0_pay1 (F := F)) x0 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1) hz, View.readCov_unit_zero (S := S1024x1) _ hz]
  simp only [View.readAt_eq_ld, h2.read_unread, View.ld_unit_zero (S := S1024x2048) hz]

end Cert.KernelIdeal.Pieces

end
-- ==== Proof.Spec.lean ====
/-
  The function both programs compute, index by index, over the extended reals.

  With `s r = ∑ c, adj[r, c]` the sum of row `r` of the adjacency array, the degree factor of the row is
  `d r = 1 / ((0 + s r) + 1) + 1`, and the result at `(r, e)` is
  `max (∑ k, (d r · x[r, k]) · W[e, k]) 0`: the row-scaled features times the transposed weights, clamped at zero.
  The two literals are kept as the words the programs print (`0x00000000`, `0x3F800000`): both sides carry the
  same words, so they are never evaluated except where a leading zero of a sum has to go.

  One program sums a row in one piece, the other in eight consecutive runs of 2048 columns; `sum_runs` is the
  regrouping of a sum over `16384 = 8 · 2048` naturals into those runs, valid in any commutative monoid — the
  extended reals under addition are one, infinities included, so no finiteness is needed anywhere.
-/
import Idealize.ShloMosaic.PureOps.Ideal
import Idealize.ShloMosaic.Lib.ValueIdx

noncomputable section

open scoped BigOperators

namespace Cert.Spec

open Idealize.ShloMosaic Idealize.ShloMosaic.ValueIdx

/-- The word of `+0.0` at the ideal instance. -/
abbrev zero : EReal := Ideal.ofBits .f32 0x00000000#32
/-- The word of `1.0` at the ideal instance. -/
abbrev one : EReal := Ideal.ofBits .f32 0x3F800000#32

/-- The degree factor of a row whose entries sum to `s`: `1 / (s + 1) + 1`. -/
def factor (s : EReal) : EReal := Ideal.div one (s + one) + one

/-- The result at row `r`, column `e`, from the row's factor `d`: `max (∑ k, (d · x[r, k]) · W[e, k]) 0`. -/
def entry (d : EReal) (x : (⟨2, ![16384, 512]⟩ : Shape).Idx → EReal) (W : (⟨2, ![256, 512]⟩ : Shape).Idx → EReal)
    (r : Fin 16384) (e : Fin 256) : EReal :=
  max (∑ k : Fin 512, (d * x (ix2 r k)) * W (ix2 e k)) zero

/-- The sum of row `r` of `adj`, from the leading zero the host's reduction starts at. -/
def rowSum (adj : (⟨2, ![16384, 16384]⟩ : Shape).Idx → EReal) (r : Fin 16384) : EReal :=
  zero + ∑ c : Fin 16384, adj (ix2 r c)

/-- THE SPECIFICATION, by coordinates. -/
def Gat (adj : (⟨2, ![16384, 16384]⟩ : Shape).Idx → EReal) (x : (⟨2, ![16384, 512]⟩ : Shape).Idx → EReal)
    (W : (⟨2, ![256, 512]⟩ : Shape).Idx → EReal) (r : Fin 16384) (e : Fin 256) : EReal :=
  entry (factor (rowSum adj r)) x W r e

/-- THE SPECIFICATION, as one array. -/
def G (adj : (⟨2, ![16384, 16384]⟩ : Shape).Idx → EReal) (x : (⟨2, ![16384, 512]⟩ : Shape).Idx → EReal)
    (W : (⟨2, ![256, 512]⟩ : Shape).Idx → EReal) : (⟨2, ![16384, 256]⟩ : Shape).Idx → EReal :=
  fun i => Gat adj x W ⟨(i 0).val, idx2_lt0 i⟩ ⟨(i 1).val, idx2_lt1 i⟩

theorem G_ix2 (adj : (⟨2, ![16384, 16384]⟩ : Shape).Idx → EReal) (x : (⟨2, ![16384, 512]⟩ : Shape).Idx → EReal)
    (W : (⟨2, ![256, 512]⟩ : Shape).Idx → EReal) (r : Fin 16384) (e : Fin 256) :
    G adj x W (ix2 r e) = Gat adj x W r e := rfl

/-! ## A rank-2 array read at natural coordinates -/

/-- `A` at the coordinates `(a, b)` given as naturals; zero outside the array, where it is never consulted. -/
def at2 {n0 n1 : Nat} (A : (⟨2, ![n0, n1]⟩ : Shape).Idx → EReal) (a b : Nat) : EReal :=
  if h : a < n0 ∧ b < n1 then A (ix2 ⟨a, h.1⟩ ⟨b, h.2⟩) else 0

theorem at2_eq {n0 n1 : Nat} (A : (⟨2, ![n0, n1]⟩ : Shape).Idx → EReal) (a : Fin n0) (b : Fin n1) :
    at2 A a.val b.val = A (ix2 a b) := dif_pos ⟨a.isLt, b.isLt⟩

theorem at2_of_lt {n0 n1 : Nat} (A : (⟨2, ![n0, n1]⟩ : Shape).Idx → EReal) (a b : Nat) (ha : a < n0) (hb : b < n1) :
    at2 A a b = A (ix2 ⟨a, ha⟩ ⟨b, hb⟩) := dif_pos ⟨ha, hb⟩

/-! ## Regrouping a sum into consecutive runs -/

/-- A sum over `b · a` consecutive naturals is the sum, over `a` runs, of each run's `b` terms. -/
theorem sum_range_runs {M : Type*} [AddCommMonoid M] (f : Nat → M) (b : Nat) :
    ∀ a : Nat, ∑ s ∈ Finset.range a, ∑ c ∈ Finset.range b, f (b * s + c) = ∑ k ∈ Finset.range (b * a), f k
  | 0 => by simp
  | a + 1 => by
    rw [Finset.sum_range_succ, sum_range_runs f b a, Nat.mul_succ, Finset.sum_range_add]

/-- The 16384 columns of a row, summed as 8 runs of 2048. -/
theorem sum_runs {M : Type*} [AddCommMonoid M] (f : Nat → M) :
    ∑ s ∈ Finset.range 8, ∑ c : Fin 2048, f (2048 * s + c.val) = ∑ k : Fin 16384, f k.val := by
  rw [Fin.sum_univ_eq_sum_range (fun k => f k) 16384]
  rw [show (16384 : Nat) = 2048 * 8 from rfl, ← sum_range_runs f 2048 8]
  exact Finset.sum_congr rfl fun s _ => Fin.sum_univ_eq_sum_range (fun c => f (2048 * s + c)) 2048

end Cert.Spec

end
-- ==== Proof.Payload.lean ====
/-
  The body's three stored values, read at one element over the extended reals.

  * the reset value is zero everywhere;
  * the accumulator's new value at row `r` is its old value there plus `∑ c < 2048` of the adjacency block's row `r`
    (a lane sum into a column: the `[1024] → [1024, 1]` cast keeps the row);
  * the output at `(r, e)` is `max (∑ k < 512, (d r · x[r, k]) · w[k, e]) 0` with `d r = 1 / (a[r] + 1) + 1` of the
    accumulator's entry: the column of factors is broadcast along the 512 features, the two changes of float format
    are the identity, and a product into a zero accumulator is the plain sum over the contracted axis.
-/
import proofs.«156429_j16690242913101_1_alg».proof.Proof.Gen.KernelIdeal.Skeleton
import proofs.«156429_j16690242913101_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The reset value: zero at every row. -/
theorem reset_apply (j : S1024x1.Idx) : k0_pay1 (F := Ideal) j = Spec.zero := by
  unfold k0_pay1
  rw [shapeCast_self]
  rfl

/-- A lane sum of a `[1024, 2048]` block at row `r`: the sum of the row's 2048 entries. -/
theorem laneSum_apply (v : FVec Ideal S1024x2048 .f32) (hφ : FKind.Formats .f32)
    (hacc : (0x00000000#32 : BitVec 32) = FKind.add.neutral .f32 hφ) (r : Fin 1024) :
    multiReduction .add [1] S1024 v 0x00000000#32 reduces_S1024x2048_S1024 hφ hacc (ix1 r) = ∑ c : Fin 2048, v (ix2 r c) := by
  refine (Ideal.multiReduction_add_single v _ reduces_S1024x2048_S1024 hφ hacc (ix1 r)).trans ?_
  exact Finset.sum_congr rfl fun c _ => congrArg v (funext fun a => Fin.ext (by
    match a with
    | ⟨0, _⟩ => rfl
    | ⟨1, _⟩ => rfl))

/-- A vector of 1024 entries viewed as a column reads row `r` at `(r, 0)`. -/
theorem column_apply {α : Type} (v : S1024.Idx → α) (h : S1024.ShapeCasts S1024x1) (r : Fin 1024) (z : Fin 1) :
    shapeCast S1024x1 v h (ix2 r z) = v (ix1 r) := by
  refine shapeCast_apply v h (ix2 r z) (ix1 r) ?_
  rw [Shape.rowMajor_val_one, Shape.rowMajor_val_two]
  show r.val = r.val * 1 + z.val
  have := z.isLt
  omega

/-- The accumulator's new value at row `r`: the old value plus the block's row sum. -/
theorem accum_apply (a : Vec Ideal S1024x1 .f32) (v : Vec Ideal S1024x2048 .f32) (r : Fin 1024) (z : Fin 1) :
    k0_pay2 (F := Ideal) a v (ix2 r z) = a (ix2 r z) + ∑ c : Fin 2048, v (ix2 r c) := by
  unfold k0_pay2
  rw [shapeCast_self]
  refine (addf_apply _ _ _).trans ?_
  refine congrArg (a (ix2 r z) + ·) ?_
  refine (column_apply _ _ r z).trans ?_
  exact laneSum_apply v _ _ r

/-- A column broadcast along 512 features reads, at `(r, k)`, the column's row `r`. -/
theorem spread_apply {α : Type} (v : S1024x1.Idx → α) (h : S1024x1.Broadcasts S1024x512) (r : Fin 1024) (k : Fin 512) :
    broadcastTo S1024x512 v h (ix2 r k) = v (ix2 r (0 : Fin 1)) := by
  refine broadcastTo_apply v h (ix2 r k) (ix2 r (0 : Fin 1)) fun a => ?_
  match a with
  | ⟨0, _⟩ => show r.val = if (1024 : Nat) = 1 then 0 else r.val; rw [if_neg (by decide)]
  | ⟨1, _⟩ => show 0 = if (1 : Nat) = 1 then 0 else k.val; rw [if_pos rfl]

/-- The scaled features in the product's left format, at `(r, k)`: the row's factor times the feature (the change of
    format is the identity, the product pointwise, the column of factors broadcast along the features). -/
theorem scaled_apply (d : FVec Ideal S1024x1 .f32) (x : FVec Ideal S1024x512 .f32) (r : Fin 1024) (k : Fin 512) :
    (truncf .bf16 (mulf (broadcastTo S1024x512 d broadcasts_S1024x1_S1024x512) x) bitsLt_bf16_f32 : FVec Ideal S1024x512 .bf16) (ix2 r k)
      = d (ix2 r (0 : Fin 1)) * x (ix2 r k) := by
  show broadcastTo S1024x512 d broadcasts_S1024x1_S1024x512 (ix2 r k) * x (ix2 r k) = _
  rw [spread_apply]

/-- The weights in the product's right format, at `(k, e)`: the weight itself. -/
theorem weights_apply (w : FVec Ideal S512x256 .f32) (k : Fin 512) (e : Fin 256) :
    (truncf .bf16 (shapeCast S512x256 w shapeCasts_S512x256_S512x256) bitsLt_bf16_f32 : FVec Ideal S512x256 .bf16) (ix2 k e)
      = w (ix2 k e) := by
  show shapeCast S512x256 w shapeCasts_S512x256_S512x256 (ix2 k e) = _
  rw [shapeCast_self]

/-- The product's operand indices at output `(r, e)` and contraction coordinate `q`: the left operand's row is `r`, -/
theorem lhs_row (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
/-- its column the contracted coordinate; -/
theorem lhs_col (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
/-- the right operand's row is the contracted coordinate, -/
theorem rhs_row (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
/-- its column `e`. -/
theorem rhs_col (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The output at `(r, e)`, from the accumulator `a`, the feature block `x` and the weights `w`. -/
theorem out_apply (a : Vec Ideal S1024x1 .f32) (x : Vec Ideal S1024x512 .f32) (w : Vec Ideal S512x256 .f32)
    (r : Fin 1024) (e : Fin 256) :
    k0_pay3 (F := Ideal) a x w (ix2 r e)
      = max (∑ k : Fin 512, (Spec.factor (a (ix2 r (0 : Fin 1))) * x (ix2 r k)) * w (ix2 k e)) Spec.zero := by
  unfold k0_pay3
  refine (maximumf_apply _ _ _).trans ?_
  refine congrArg₂ max ?_ rfl
  refine (Ideal.matmul_constant_zero_apply dot_S1024x512_S512x256_S1024x256_1_0_0_1_n_n none _ _ (ix2 r e)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r e) ((contrEquiv1 dot_S1024x512_S512x256_S1024x256_1_0_0_1_n_n 512 rfl rfl).symm k) = ix2 r k :=
    funext fun b => Fin.ext (by
      match b with
      | ⟨0, _⟩ => exact lhs_row _ _
      | ⟨1, _⟩ => exact (lhs_col _ _).trans hk)
  have er : dot_S1024x512_S512x256_S1024x256_1_0_0_1_n_n.rhsIdx (ix2 r e) ((contrEquiv1 dot_S1024x512_S512x256_S1024x256_1_0_0_1_n_n 512 rfl rfl).symm k) = ix2 k e :=
    funext fun b => Fin.ext (by
      match b with
      | ⟨0, _⟩ => exact (rhs_row _ _).trans hk
      | ⟨1, _⟩ => exact rhs_col _ _)
  rw [el, er]
  refine congrArg₂ (· * ·) ?_ ?_
  · exact (scaled_apply _ x r k).trans rfl
  · exact weights_apply w k e

end Cert.KernelIdeal.Payload

end
-- ==== Proof.Blocks.lean ====
/-
  The blocks the pipeline stages, read at one element of the argument arrays.

  The grid is 16 row blocks by 8 column blocks, row-major: point `t` is row block `t / 8`, column block `t % 8`.
  At that point the adjacency window holds rows `1024 · (t / 8) + r`, columns `2048 · (t % 8) + k`; the feature window
  holds rows `1024 · (t / 8) + r`, all 512 columns; the weights window holds the whole `[512, 256]` array the host
  wrote before the region, the transpose of `W`, so its `(k, e)` entry is `W[e, k]`; and the output window's block
  is rows `1024 · (t / 8) + r`, all 256 columns.
-/
import proofs.«156429_j16690242913101_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The windows' block indices over the grid: the row block is `t / 8`, the adjacency's column block `t % 8`. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- A point's row block is one of the 16. -/
theorem rowBlock_lt (t : Fin cfg0.N) : t.val / 8 < 16 := by
  have h := t.isLt; have hN : cfg0.N = 128 := N_0; omega

/-- The adjacency block at point `t`, at `(r, k)`. -/
theorem adj_block (c : Dev nD) (t : Fin cfg0.N) (r : Fin 1024) (k : Fin 2048) :
    (iblk m c 0 t : Vec F S1024x2048 .f32) (ix2 r k)
      = m ((c : Thread nD τ).loc main_arg0) (ix2 ⟨1024 * (t.val / 8) + r.val, by have := rowBlock_lt t; omega⟩
          ⟨2048 * (t.val % 8) + k.val, by have := Nat.mod_lt t.val (show 0 < 8 by decide); omega⟩) := by
  obtain ⟨e0, e1, -⟩ := idx_facts t
  unfold iblk
  rw [View.read_apply]
  show V m c main_arg0 (((cfg0.win 0).blk t).view.emb (ix2 r k)) = _
  rw [V_main_arg0 m c]
  refine congrArg (m ((c : Thread nD τ).loc main_arg0)) (funext fun a => Fin.ext ?_)
  match a with
  | ⟨0, _⟩ => show win0_0.index t (0 : Fin 2) * 1024 + 1 * r.val = 1024 * (t.val / 8) + r.val; rw [e0]; omega
  | ⟨1, _⟩ => show win0_0.index t (1 : Fin 2) * 2048 + 1 * k.val = 2048 * (t.val % 8) + k.val; rw [e1]; omega

/-- The feature block at point `t`, at `(r, k)`. -/
theorem x_block (c : Dev nD) (t : Fin cfg0.N) (r : Fin 1024) (k : Fin 512) :
    (iblk m c 1 t : Vec F S1024x512 .f32) (ix2 r k)
      = m ((c : Thread nD τ).loc main_arg1) (ix2 ⟨1024 * (t.val / 8) + r.val, by have := rowBlock_lt t; omega⟩ k) := by
  obtain ⟨-, -, e0, e1, -⟩ := idx_facts t
  unfold iblk
  rw [View.read_apply]
  show V m c main_arg1 (((cfg0.win 1).blk t).view.emb (ix2 r k)) = _
  rw [V_main_arg1 m c]
  refine congrArg (m ((c : Thread nD τ).loc main_arg1)) (funext fun a => Fin.ext ?_)
  match a with
  | ⟨0, _⟩ => show win0_1.index t (0 : Fin 2) * 1024 + 1 * r.val = 1024 * (t.val / 8) + r.val; rw [e0]; omega
  | ⟨1, _⟩ => show win0_1.index t (1 : Fin 2) * 512 + 1 * k.val = k.val; rw [e1]; omega

/-- What the region finds in the array the host wrote before it: the transpose of `W`. -/
theorem V_weights (c : Dev nD) :
    (V m c main_v0 : S512x256.Idx → Elt F .f32)
      = transpose S512x256 [1, 0] (m ((c : Thread nD τ).loc main_arg2)) transposes_S256x512_S512x256_1_0 := by
  dsimp only [V, hostOps0]
  after_results

/-- The weights block (at every point the whole transposed array), at `(k, e)`: `W[e, k]`. -/
theorem w_block (c : Dev nD) (t : Fin cfg0.N) (k : Fin 512) (e : Fin 256) :
    (iblk m c 2 t : Vec F S512x256 .f32) (ix2 k e) = m ((c : Thread nD τ).loc main_arg2) (ix2 e k) := by
  obtain ⟨-, -, -, -, e0, e1, -⟩ := idx_facts t
  unfold iblk
  rw [View.read_apply]
  show V m c main_v0 (((cfg0.win 2).blk t).view.emb (ix2 k e)) = _
  rw [V_weights m c]
  have hi : ((cfg0.win 2).blk t).view.emb (ix2 k e) = ix2 k e := funext fun a => Fin.ext (by
    match a with
    | ⟨0, _⟩ => show win0_2.index t (0 : Fin 2) * 512 + 1 * k.val = k.val; rw [e0]; omega
    | ⟨1, _⟩ => show win0_2.index t (1 : Fin 2) * 256 + 1 * e.val = e.val; rw [e1]; omega)
  rw [hi]
  exact transpose_apply [1, 0] _ transposes_S256x512_S512x256_1_0 (ix2 k e) (ix2 e k) (fun b => match b with
    | ⟨0, _⟩ => rfl
    | ⟨1, _⟩ => rfl)

/-- The output window's block at point `t` sits at rows `1024 · (t / 8) + r`. -/
theorem out_block_emb (t : Fin cfg0.N) (r : Fin 1024) (e : Fin 256) :
    ((cfg0.win 3).blk t).view.emb (ix2 r e) = ix2 ⟨1024 * (t.val / 8) + r.val, by have := rowBlock_lt t; omega⟩ e := by
  obtain ⟨-, -, -, -, -, -, e0, e1⟩ := idx_facts t
  refine funext fun a => Fin.ext ?_
  match a with
  | ⟨0, _⟩ => show win0_3.index t (0 : Fin 2) * 1024 + 1 * r.val = 1024 * (t.val / 8) + r.val; rw [e0]; omega
  | ⟨1, _⟩ => show win0_3.index t (1 : Fin 2) * 256 + 1 * e.val = e.val; rw [e1]; omega

end Cert.KernelIdeal.Blocks

end
-- ==== Proof.KernelValue.lean ====
/-
  What the kernel's result array holds after the run: the specification.

  The accumulator carried along a row block's eight column blocks is reset at the first and, at each point, gains the
  row sums of that point's adjacency block; so after the last of the eight it holds, at row `r`, zero plus the sum over
  the eight runs of 2048 columns of row `1024 · q + r` of `adj` — regrouped, the sum of the whole row. The output block is
  computed at that last point from the accumulator just stored, the row block's features and the transposed weights:
  at `(r, e)` it is the specification's entry at row `1024 · q + r`. Only the last point of each row block writes its
  output block back, the sixteen blocks tile the result array, and each is that block of the one specification array.
-/
import proofs.«156429_j16690242913101_1_alg».proof.Proof.Gen.KernelIdeal.Value
import proofs.«156429_j16690242913101_1_alg».proof.Proof.Pieces
import proofs.«156429_j16690242913101_1_alg».proof.Proof.Payload
import proofs.«156429_j16690242913101_1_alg».proof.Proof.Blocks
import proofs.«156429_j16690242913101_1_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-- The three argument arrays on core `c`, as launched. -/
abbrev adjOf (c : Dev nD) : S16384x16384.Idx → EReal := m ((c : Thread nD τ).loc main_arg0)
abbrev xOf (c : Dev nD) : S16384x512.Idx → EReal := m ((c : Thread nD τ).loc main_arg1)
abbrev wOf (c : Dev nD) : S256x512.Idx → EReal := m ((c : Thread nD τ).loc main_arg2)

/-- The specification of core `c`'s arguments. -/
abbrev spec (c : Dev nD) : S16384x256.Idx → EReal := Spec.G (adjOf m c) (xOf m c) (wOf m c)

/-- Two arrays over a literal rank-2 shape agree when they agree at every pair of coordinates. -/
theorem ext2 {α : Type} {n0 n1 : Nat} (f g : (⟨2, ![n0, n1]⟩ : Shape).Idx → α) (h : ∀ a b, f (ix2 a b) = g (ix2 a b)) :
    f = g := funext fun j => by rw [eq_ix2 j]; exact h _ _

/-! ## The accumulator -/

/-- Point `n`'s addend to the accumulator at the row of index `i`: the row sum of the adjacency block the point stages
    — rows `1024 · (n / 8) + ·`, columns `2048 · (n % 8) + ·` of `adj`. -/
def addend (c : Dev nD) (n : Nat) (i : S1024x1.Idx) : EReal :=
  ∑ k : Fin 2048, Spec.at2 (adjOf m c) (1024 * (n / 8) + (i 0).val) (2048 * (n % 8) + k.val)

/-- One accumulation at point `n`: the stored value is the old one plus the point's addend. -/
theorem step_apply (c : Dev nD) (n : Nat) (h : n < cfg0.N) (acc : Vec Ideal S1024x1 .f32) (i : S1024x1.Idx) :
    k0_pay2 (F := Ideal) acc (iblk m c 0 ⟨n, h⟩) i = acc i + addend m c n i := by
  obtain ⟨r, z, rfl⟩ : ∃ (r : Fin 1024) (z : Fin 1), i = ix2 r z := ⟨i 0, i 1, eq_ix2 i⟩
  refine (Payload.accum_apply acc (iblk m c 0 ⟨n, h⟩) r z).trans ?_
  refine congrArg (acc (ix2 r z) + ·) (Finset.sum_congr rfl fun k _ => ?_)
  exact (Blocks.adj_block m c ⟨n, h⟩ r k).trans (Spec.at2_of_lt (adjOf m c) _ _ _ _).symm

/-- THE ACCUMULATOR AFTER POINT `t`: zero plus the addends of the points of `t`'s row block up to `t`. -/
theorem acc_apply (c : Dev nD) (t : Fin cfg0.N) (i : S1024x1.Idx) :
    (outsAt0 m c t.val t.isLt).2 i
      = Spec.zero + ∑ s ∈ Finset.range (t.val % 8 + 1), addend m c (8 * (t.val / 8) + s) i := by
  rw [Value.soutsAt0_0_eq m c t]
  refine Pipeline.accAt_add_apply (β := EReal) _ _ (fun _ => Spec.zero) (addend m c) (8 * (t.val / 8)) 7 ?ha ?hg (t.val % 8)
    (by have := Nat.mod_lt t.val (show 0 < 8 by decide); omega) _ i
  case ha =>
    intro h j
    have h0 : (8 * (t.val / 8)) % 8 = 0 := Nat.mul_mod_right 8 _
    have h1 : ¬(8 * (t.val / 8)) % 8 = 7 := by omega
    show Value.scAt0_0 m c (8 * (t.val / 8)) h _ j = _
    unfold Value.scAt0_0
    rw [dif_pos h0, dif_neg h1, Pieces.acc_first]
    refine (step_apply m c _ h _ j).trans ?_
    rw [Payload.reset_apply]
  case hg =>
    intro n h acc j hlo hhi
    have h0 : ¬n % 8 = 0 := by omega
    unfold Value.scAt0_0
    rw [dif_neg h0]
    by_cases h1 : n % 8 = 7
    · rw [dif_pos h1, Pieces.acc_last]; exact step_apply m c n h acc j
    · rw [dif_neg h1, Pieces.acc_mid]; exact step_apply m c n h acc j

/-- … so after the LAST point of a row block the accumulator holds, at row `r`, the whole row's sum. -/
theorem acc_last_point (c : Dev nD) (t : Fin cfg0.N) (h1 : t.val % 8 = 7) (r : Fin 1024) (z : Fin 1) :
    (outsAt0 m c t.val t.isLt).2 (ix2 r z)
      = Spec.rowSum (adjOf m c) ⟨1024 * (t.val / 8) + r.val, by have := Blocks.rowBlock_lt t; omega⟩ := by
  rw [acc_apply m c t (ix2 r z), show t.val % 8 + 1 = 8 by omega]
  unfold Spec.rowSum
  refine congrArg (Spec.zero + ·) ?_
  have e : ∀ s ∈ Finset.range 8, addend m c (8 * (t.val / 8) + s) (ix2 r z)
      = ∑ k : Fin 2048, Spec.at2 (adjOf m c) (1024 * (t.val / 8) + r.val) (2048 * s + k.val) := by
    intro s hs
    have hs' : s < 8 := Finset.mem_range.mp hs
    unfold addend
    rw [show (8 * (t.val / 8) + s) / 8 = t.val / 8 by omega, show (8 * (t.val / 8) + s) % 8 = s by omega]
  rw [Finset.sum_congr rfl e, Spec.sum_runs (fun n => Spec.at2 (adjOf m c) (1024 * (t.val / 8) + r.val) n)]
  exact Finset.sum_congr rfl fun k _ => Spec.at2_of_lt _ _ _ _ k.isLt

/-! ## The output block of a row block's last point -/

/-- At the last point of a row block the output block is the output computed from the accumulator that point leaves. -/
theorem out_of_acc (c : Dev nD) (t : Fin cfg0.N) (h0 : ¬t.val % 8 = 0) (h1 : t.val % 8 = 7) :
    (outsAt0 m c t.val t.isLt).1 = k0_pay3 (F := Ideal) (outsAt0 m c t.val t.isLt).2 (iblk m c 1 t) (iblk m c 2 t) := by
  rw [outsAt0_C m c t h0 h1]
  dsimp only
  rw [Pieces.out_last, Pieces.acc_last]

/-- … which at `(r, e)` is the specification's entry at row `1024 · (t / 8) + r`. -/
theorem out_last_point (c : Dev nD) (t : Fin cfg0.N) (h0 : ¬t.val % 8 = 0) (h1 : t.val % 8 = 7) (r : Fin 1024) (e : Fin 256) :
    (outsAt0 m c t.val t.isLt).1 (ix2 r e)
      = Spec.Gat (adjOf m c) (xOf m c) (wOf m c) ⟨1024 * (t.val / 8) + r.val, by have := Blocks.rowBlock_lt t; omega⟩ e := by
  rw [out_of_acc m c t h0 h1]
  refine (Payload.out_apply _ (iblk m c 1 t) (iblk m c 2 t) r e).trans ?_
  rw [acc_last_point m c t h1 r 0]
  unfold Spec.Gat Spec.entry
  refine congrArg₂ max (Finset.sum_congr rfl fun k _ => ?_) rfl
  rw [Blocks.x_block m c t r k, Blocks.w_block m c t k e]

/-! ## From the blocks to the array -/

/-- WHAT A WRITING POINT WRITES BACK is its block of the specification. -/
theorem flushed_eq (c : Dev nD) (t : Fin cfg0.N) (hf : (cfg0.win 3).flush t = true) :
    (dats m 0 c).flushed 3 t = ((cfg0.win 3).blk t).view.read (Elt Ideal) (spec m c) := by
  have h1 : t.val % 8 = 7 := (flush0_3 t).mp hf
  have h0 : ¬t.val % 8 = 0 := by omega
  rw [Value.flushed3 m c t]
  refine ext2 _ _ fun r e => ?_
  show (outsAt0 m c t.val t.isLt).1 (ix2 r e) = _
  rw [View.read_apply, Blocks.out_block_emb t r e]
  exact out_last_point m c t h0 h1 r e

/-- An index of the result array is in point `t`'s block iff each coordinate is in the block's range on its axis. -/
theorem mem_blk (t : Fin cfg0.N) (i : S16384x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v1).slice (win0_3.rect t)).set ↔ _
  rw [View.set_slice_whole, Rect.mem_set_unit]
  exact Iff.rfl

/-- Every index of the result array is in the block some writing point writes: row `ρ` is in row block `ρ / 1024`,
    whose last point is `8 · (ρ / 1024) + 7`. -/
theorem cover (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : cfg0.N = 128 := N_0
  have hlt : 8 * ((i 0).val / 1024) + 7 < cfg0.N := by omega
  obtain ⟨-, -, -, -, -, -, e0, e1⟩ := Blocks.idx_facts ⟨8 * ((i 0).val / 1024) + 7, hlt⟩
  have e0' : win0_3.index ⟨8 * ((i 0).val / 1024) + 7, hlt⟩ (0 : Fin 2) = (i 0).val / 1024 := by
    rw [e0]; show (8 * ((i 0).val / 1024) + 7) / 8 = _; omega
  refine ⟨⟨8 * ((i 0).val / 1024) + 7, hlt⟩, (flush0_3 _).mpr (by show (8 * ((i 0).val / 1024) + 7) % 8 = 7; omega), ?_⟩
  rw [mem_blk]
  intro a
  match a with
  | ⟨0, _⟩ =>
    show win0_3.index ⟨8 * ((i 0).val / 1024) + 7, hlt⟩ (0 : Fin 2) * 1024 ≤ (i 0).val
      ∧ (i 0).val < win0_3.index ⟨8 * ((i 0).val / 1024) + 7, hlt⟩ (0 : Fin 2) * 1024 + 1024
    rw [e0']; omega
  | ⟨1, _⟩ =>
    show win0_3.index ⟨8 * ((i 0).val / 1024) + 7, hlt⟩ (1 : Fin 2) * 256 ≤ (i 1).val
      ∧ (i 1).val < win0_3.index ⟨8 * ((i 0).val / 1024) + 7, hlt⟩ (1 : Fin 2) * 256 + 256
    rw [e1]; omega

/-- THE RESULT ARRAY after the run is the specification. -/
theorem final (c : Dev nD) : (dats m 0 c).arrAt 3 cfg0.N = spec m c :=
  (dats m 0 c).arrAt_eq_of_cover 3 (spec m c) (flushed_eq m c) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  The reference computes the specification.

  Read one operation at a time, the reference's result at `(r, e)` is the maximum of zero and the sum over the 512
  features `k` of `(d r · x[r, k]) · Wᵀ[k, e]`, where `d r = 1 / ((0 + ∑ c, adj[r, c]) + 1) + 1` reaches `(r, k)` through
  two broadcasts (a vector to a column, the column along the features) and `Wᵀ[k, e] = W[e, k]`. That is the
  specification's entry, term for term; only the composed index functions have to be recognised as the coordinates.
-/
import proofs.«156429_j16690242913101_1_alg».proof.Proof.Gen.ReferenceIdeal.Read
import proofs.«156429_j16690242913101_1_alg».proof.Proof.Spec

noncomputable section

open scoped BigOperators
open Idealize.ShloMosaic Idealize.ShloMosaic.ValueIdx

namespace Cert.ReferenceIdeal.RefValue

open Cert.ReferenceIdeal Cert.ReferenceIdeal.Read

/-- The row of `adj` the reduction reads for output `(r, e)` and feature `k` is row `r`. -/
theorem row_idx (r : Fin 16384) (k : Fin 512) (c : Fin 16384) :
    idx_main_v0 (idx_main_v7 (idx_main_v8 (ix2 r k))) c = ix2 r c :=
  funext fun a => Fin.ext (by match a with | ⟨0, _⟩ => rfl | ⟨1, _⟩ => rfl)

/-- The feature read is `x[r, k]`. -/
theorem feat_idx (r : Fin 16384) (e : Fin 256) (k : Fin 512) : lidx_main_v11 (ix2 r e) k = ix2 r k :=
  funext fun a => Fin.ext (by match a with | ⟨0, _⟩ => rfl | ⟨1, _⟩ => rfl)

/-- The weight read through the transpose is `W[e, k]`. -/
theorem weight_idx (r : Fin 16384) (e : Fin 256) (k : Fin 512) : idx_main_v10 (ridx_main_v11 (ix2 r e) k) = ix2 e k :=
  funext fun a => Fin.ext (by match a with | ⟨0, _⟩ => rfl | ⟨1, _⟩ => rfl)

/-- THE REFERENCE IS THE SPECIFICATION. -/
theorem ref_eq (adj : (⟨S16384x16384, .f32⟩ : BufTy).Contents (Elt Ideal)) (x : (⟨S16384x512, .f32⟩ : BufTy).Contents (Elt Ideal))
    (W : (⟨S256x512, .f32⟩ : BufTy).Contents (Elt Ideal)) :
    val_main_v12 (F := Ideal) adj x W = Spec.G adj x W := by
  funext i
  obtain ⟨r, e, rfl⟩ : ∃ (r : Fin 16384) (e : Fin 256), i = ix2 r e := ⟨i 0, i 1, eq_ix2 i⟩
  rw [Spec.G_ix2]
  simp only [val_main_v12_apply, val_main_call0_v0_apply, val_main_call0_cst_apply, val_main_v11_apply,
    val_main_v9_apply, val_main_v8_apply, val_main_v7_apply, val_main_v6_apply, val_main_v5_apply, val_main_cst_2_apply,
    val_main_v4_apply, val_main_v3_apply, val_main_cst_1_apply, val_main_v2_apply, val_main_v1_apply,
    val_main_cst_0_apply, val_main_v0_apply, val_main_cst_apply, val_main_v10_apply,
    row_idx, feat_idx, weight_idx,
    Ideal.maximumf_def, Ideal.mulf_def, Ideal.addf_def, Ideal.hostDivf_def, Ideal.ofBits_def]
  unfold Spec.Gat Spec.entry Spec.factor Spec.rowSum
  rfl

end Cert.ReferenceIdeal.RefValue

end
-- ==== Proof.lean ====
/-
  A graph layer: each node's features scaled by a degree factor, a linear map, a clamp at zero.

  With `s r = ∑ c, adj[r, c]` the sum of row `r` of the adjacency array and `d r = 1 / (s r + 1) + 1`, both programs
  compute `out[r, e] = max (∑ k, (d r · x[r, k]) · W[e, k]) 0` (Proof/Spec.lean). The reference does it in one piece.
  The kernel walks a 16 × 8 grid of 1024-row by 2048-column blocks of `adj`: along a row block it accumulates the
  blocks' row sums in a carried column, and at the eighth block it forms the factors, scales the row block's features,
  multiplies by the transposed weights and clamps. Over the extended reals the eight partial sums regroup to the row's
  sum — addition there is commutative and associative at the infinities too, so the inputs' finiteness is never used —,
  a change of float format is the identity, and a matrix product into a zero accumulator is the plain sum over the
  contracted axis; the rest is the same operations on the same literals in the same order.

  The three frames and both runs are the generated ones; the idealization rewrote nothing, so the preservation claim is
  trivial; the value claim sets the kernel's run (Proof/KernelValue.lean: the result array is the specification) beside
  the reference's (Proof/RefValue.lean: its term is the specification) at arguments that agree.
-/
import proofs.«156429_j16690242913101_1_alg».proof.Defs
import proofs.«156429_j16690242913101_1_alg».proof.Proof.Gen.Kernel
import proofs.«156429_j16690242913101_1_alg».proof.Proof.Gen.Kernel.Skeleton
import proofs.«156429_j16690242913101_1_alg».proof.Proof.Gen.Kernel.Launch
import proofs.«156429_j16690242913101_1_alg».proof.Proof.Gen.Kernel.Points
import proofs.«156429_j16690242913101_1_alg».proof.Proof.Gen.Kernel.Frame
import proofs.«156429_j16690242913101_1_alg».proof.Proof.Gen.KernelIdeal
import proofs.«156429_j16690242913101_1_alg».proof.Proof.Gen.KernelIdeal.Skeleton
import proofs.«156429_j16690242913101_1_alg».proof.Proof.Gen.KernelIdeal.Launch
import proofs.«156429_j16690242913101_1_alg».proof.Proof.Gen.KernelIdeal.Points
import proofs.«156429_j16690242913101_1_alg».proof.Proof.Gen.KernelIdeal.Frame
import proofs.«156429_j16690242913101_1_alg».proof.Proof.Gen.ReferenceIdeal
import proofs.«156429_j16690242913101_1_alg».proof.Proof.Gen.Pre_finite_inputs
import proofs.«156429_j16690242913101_1_alg».proof.Proof.Gen.KernelIdeal.Value
import proofs.«156429_j16690242913101_1_alg».proof.Proof.Gen.ReferenceIdeal.Run
import proofs.«156429_j16690242913101_1_alg».proof.Proof.Gen.ReferenceIdeal.Read
import proofs.«156429_j16690242913101_1_alg».proof.Proof.KernelValue
import proofs.«156429_j16690242913101_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals: nothing to preserve. -/
theorem preserves : Cert.preserves_Kernel_KernelIdeal := trivial

/-- Over the extended reals the kernel's result array and the reference's result are the specification of arguments
    that agree. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v12_eq _ _ _).trans (Cert.ReferenceIdeal.RefValue.ref_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
